-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S2x1024 : Shape := ⟨2, ![2, 1024]⟩
abbrev S1024 : Shape := ⟨1, ![1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S2x1024 : S_.BroadcastsInDim S2x1024 (![] : Fin 0 → Fin S2x1024.rank)
  reducesTo_S2x1024_S_d0_1 : S2x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024 .f32) (main_v13 : IVec S_ 1) (main_v16 : IVec S2x1024 1) : IVec S_ 1 :=
  let main_c_5 : IVec S_ 1 := constantI S_ 1 1#1
  let main_v17 : IVec S_ 1 := (fun x v => Host.reduce IntOp.andi x v reducesTo_S2x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S8x4096x1024 .f32) (main_arg1 : FVec F S8x4096x1024 .f32) (main_arg2 : FVec F S2x1024 .f32) (main_arg3 : FVec F S2x1024 .f32) (main_arg4 : FVec F S1024 .f32) (main_arg5 : FVec F S1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S8x4096x1024 .f32 := Host.absf main_arg1
  let main_cst_0 : FVec F S_ .f32 := constant S_ .f32 0x7F800000#32
  let main_v5 : FVec F S8x4096x1024 .f32 := broadcastInDim S8x4096x1024 ![] bcast_S_S8x4096x1024 main_cst_0
  let main_v6 : IVec S8x4096x1024 1 := cmpf .olt main_v4 main_v5
  let main_c_1 : IVec S_ 1 := constantI S_ 1 1#1
  let main_v7 : IVec S_ 1 := (fun x v => Host.reduce IntOp.andi x v reducesTo_S8x4096x1024_S_d0_1_2 h_S_) main_v6 main_c_1
  let main_v8 : IVec S_ 1 := andi main_v3 main_v7
  let main_v9 : FVec F S2x1024 .f32 := Host.absf main_arg2
  let main_cst_2 : FVec F S_ .f32 := constant S_ .f32 0x7F800000#32
  let main_v10 : FVec F S2x1024 .f32 := broadcastInDim S2x1024 ![] bcast_S_S2x1024 main_cst_2
  let main_v11 : IVec S2x1024 1 := cmpf .olt main_v9 main_v10
  let main_c_3 : IVec S_ 1 := constantI S_ 1 1#1
  let main_v12 : IVec S_ 1 := (fun x v => Host.reduce IntOp.andi x v reducesTo_S2x1024_S_d0_1 h_S_) main_v11 main_c_3
  let main_v13 : IVec S_ 1 := andi main_v8 main_v12
  let main_v14 : FVec F S2x1024 .f32 := Host.absf main_arg3
  let main_cst_4 : FVec F S_ .f32 := constant S_ .f32 0x7F800000#32
  let main_v15 : FVec F S2x1024 .f32 := broadcastInDim S2x1024 ![] bcast_S_S2x1024 main_cst_4
  let main_v16 : IVec S2x1024 1 := cmpf .olt main_v14 main_v15
  fn_part1 (F := F) main_arg4 main_arg5 main_v13 main_v16
-- ==== Kernel.lean ====
abbrev S8x4096x1024 : Shape := ⟨3, ![8, 4096, 1024]⟩
abbrev S2x1024 : Shape := ⟨2, ![2, 1024]⟩
abbrev S1024 : Shape := ⟨1, ![1024]⟩
abbrev S32768x1024 : Shape := ⟨2, ![32768, 1024]⟩
abbrev S1024x2 : Shape := ⟨2, ![1024, 2]⟩
abbrev S1x1024 : Shape := ⟨2, ![1, 1024]⟩
abbrev S512x1024 : Shape := ⟨2, ![512, 1024]⟩
abbrev S512x2 : Shape := ⟨2, ![512, 2]⟩
abbrev S512x1 : Shape := ⟨2, ![512, 1]⟩
abbrev S512 : Shape := ⟨1, ![512]⟩

abbrev nBuf : Space → Nat
  | .hbm => 14
  | .vmem => 10
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S2x1024, .f32⟩
  | .hbm, ⟨3, _⟩ => ⟨S2x1024, .f32⟩
  | .hbm, ⟨4, _⟩ => ⟨S1024, .f32⟩
  | .hbm, ⟨5, _⟩ => ⟨S1024, .f32⟩
  | .hbm, ⟨6, _⟩ => ⟨S32768x1024, .f32⟩
  | .hbm, ⟨7, _⟩ => ⟨S32768x1024, .f32⟩
  | .hbm, ⟨8, _⟩ => ⟨S1024x2, .f32⟩
  | .hbm, ⟨9, _⟩ => ⟨S1024x2, .f32⟩
  | .hbm, ⟨10, _⟩ => ⟨S1x1024, .f32⟩
  | .hbm, ⟨11, _⟩ => ⟨S1x1024, .f32⟩
  | .hbm, ⟨12, _⟩ => ⟨S32768x1024, .f32⟩
  | .hbm, ⟨13, _⟩ => ⟨S8x4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x2, .f32⟩
  | .local _ .vmem, ⟨5, _⟩ => ⟨S1024x2, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S8x4096x1024_S32768x1024 : S8x4096x1024.ShapeCasts S32768x1024
  transposes_S2x1024_S1024x2_1_0 : S2x1024.Transposes [1, 0] S1024x2
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x2_S1024x2_0_0 : ∀ a, (![0, 0] : Fin 2 → Nat) a + S1024x2.size a ≤ S1024x2.size a
  h_S1024x2 : 0 < S1024x2.numel
  shapeCasts_S1024x2_S1024x2 : S1024x2.ShapeCasts S1024x2
  slices_S512x2_o0_0_S512x1 : S512x2.Slices ![0, 0] S512x1
  slices_S512x2_o0_1_S512x1 : S512x2.Slices ![0, 1] S512x1
  broadcasts_S512x1_S512x1024 : S512x1.Broadcasts S512x1024
  reduces_S512x1024_S512 : S512x1024.Reduces [1] S512
  shapeCasts_S512_S512x1 : S512.ShapeCasts S512x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S32768x1024_S8x4096x1024 : S32768x1024.ShapeCasts S8x4096x1024
  dot_S512x1024_S1024x2_S512x2_1_0_0_1_n_n_wf : DotDims.WF S512x1024 S1024x2 S512x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S32768x1024.size a
  hwx0_0 : ∀ i : grid0.Coords, EltTy.bits .f32 = 32 ∨ (Rect.block (s := S32768x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S32768x1024.size a
  hwx0_1 : ∀ i : grid0.Coords, EltTy.bits .f32 = 32 ∨ (Rect.block (s := S32768x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x2.size a ≤ S1024x2.size a
  hwx0_2 : ∀ i : grid0.Coords, EltTy.bits .f32 = 32 ∨ (Rect.block (s := S1024x2) S1024x2.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x2.size a ≤ S1024x2.size a
  hwx0_3 : ∀ i : grid0.Coords, EltTy.bits .f32 = 32 ∨ (Rect.block (s := S1024x2) S1024x2.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S32768x1024.size a
  hwx0_6 : ∀ i : grid0.Coords, EltTy.bits .f32 = 32 ∨ (Rect.block (s := S32768x1024) S512x1024.size (cc0_transform_6 i) (hinb0_6 i)).WholeWords (EltTy.packing .f32)

variable [Facts₀]

def dot_S512x1024_S1024x2_S512x2_1_0_0_1_n_n : DotDims S512x1024 S1024x2 S512x2 where
  lhsContracting := [1]
  rhsContracting := [0]
  lhsNonContracting := [0]
  rhsNonContracting := [1]
  lhsBatch := []
  rhsBatch := []
  wf := dot_S512x1024_S1024x2_S512x2_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x2.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x2.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S2x1024 : Shape := ⟨2, ![2, 1024]⟩
abbrev S1024 : Shape := ⟨1, ![1024]⟩
abbrev S8x4096x2 : Shape := ⟨3, ![8, 4096, 2]⟩
abbrev S_ : Shape := ⟨0, ![]⟩
abbrev S8x4096x1 : Shape := ⟨3, ![8, 4096, 1]⟩
abbrev S8x4096 : Shape := ⟨2, ![8, 4096]⟩
abbrev S1x1x1024 : Shape := ⟨3, ![1, 1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S2x1024, .f32⟩
  | .hbm, ⟨3, _⟩ => ⟨S2x1024, .f32⟩
  | .hbm, ⟨4, _⟩ => ⟨S1024, .f32⟩
  | .hbm, ⟨5, _⟩ => ⟨S1024, .f32⟩
  | .hbm, ⟨6, _⟩ => ⟨S8x4096x2, .f32⟩
  | .hbm, ⟨7, _⟩ => ⟨S8x4096x2, .f32⟩
  | .hbm, ⟨8, _⟩ => ⟨S8x4096x2, .f32⟩
  | .hbm, ⟨9, _⟩ => ⟨S8x4096x2, .f32⟩
  | .hbm, ⟨10, _⟩ => ⟨S8x4096x2, .f32⟩
  | .hbm, ⟨11, _⟩ => ⟨S_, .f32⟩
  | .hbm, ⟨12, _⟩ => ⟨S8x4096x2, .f32⟩
  | .hbm, ⟨13, _⟩ => ⟨S8x4096x2, .f32⟩
  | .hbm, ⟨14, _⟩ => ⟨S_, .f32⟩
  | .hbm, ⟨15, _⟩ => ⟨S8x4096x2, .f32⟩
  | .hbm, ⟨16, _⟩ => ⟨S8x4096x2, .f32⟩
  | .hbm, ⟨17, _⟩ => ⟨S8x4096x1, .f32⟩
  | .hbm, ⟨18, _⟩ => ⟨S8x4096x1, .f32⟩
  | .hbm, ⟨19, _⟩ => ⟨S8x4096x1024, .f32⟩
  | .hbm, ⟨20, _⟩ => ⟨S8x4096x1024, .f32⟩
  | .hbm, ⟨21, _⟩ => ⟨S8x4096x1024, .f32⟩
  | .hbm, ⟨22, _⟩ => ⟨S8x4096x1024, .f32⟩
  | .hbm, ⟨23, _⟩ => ⟨S8x4096x1024, .f32⟩
  | .hbm, ⟨24, _⟩ => ⟨S8x4096x1024, .f32⟩
  | .hbm, ⟨25, _⟩ => ⟨S8x4096x1024, .f32⟩
  | .hbm, ⟨26, _⟩ => ⟨S_, .f32⟩
  | .hbm, ⟨27, _⟩ => ⟨S8x4096, .f32⟩
  | .hbm, ⟨28, _⟩ => ⟨S8x4096x1, .f32⟩
  | .hbm, ⟨29, _⟩ => ⟨S_, .f32⟩
  | .hbm, ⟨30, _⟩ => ⟨S8x4096x1, .f32⟩
  | .hbm, ⟨31, _⟩ => ⟨S8x4096x1, .f32⟩
  | .hbm, ⟨32, _⟩ => ⟨S8x4096x1024, .f32⟩
  | .hbm, ⟨33, _⟩ => ⟨S8x4096x1024, .f32⟩
  | .hbm, ⟨34, _⟩ => ⟨S8x4096x1024, .f32⟩
  | .hbm, ⟨35, _⟩ => ⟨S_, .f32⟩
  | .hbm, ⟨36, _⟩ => ⟨S8x4096, .f32⟩
  | .hbm, ⟨37, _⟩ => ⟨S8x4096x1, .f32⟩
  | .hbm, ⟨38, _⟩ => ⟨S_, .f32⟩
  | .hbm, ⟨39, _⟩ => ⟨S8x4096x1, .f32⟩
  | .hbm, ⟨40, _⟩ => ⟨S8x4096x1, .f32⟩
  | .hbm, ⟨41, _⟩ => ⟨S8x4096x1024, .f32⟩
  | .hbm, ⟨42, _⟩ => ⟨S8x4096x1024, .f32⟩
  | .hbm, ⟨43, _⟩ => ⟨S_, .f32⟩
  | .hbm, ⟨44, _⟩ => ⟨S8x4096x1, .f32⟩
  | .hbm, ⟨45, _⟩ => ⟨S8x4096x1, .f32⟩
  | .hbm, ⟨46, _⟩ => ⟨S8x4096x1, .f32⟩
  | .hbm, ⟨47, _⟩ => ⟨S8x4096x1024, .f32⟩
  | .hbm, ⟨48, _⟩ => ⟨S8x4096x1024, .f32⟩
  | .hbm, ⟨49, _⟩ => ⟨S1x1x1024, .f32⟩
  | .hbm, ⟨50, _⟩ => ⟨S8x4096x1024, .f32⟩
  | .hbm, ⟨51, _⟩ => ⟨S8x4096x1024, .f32⟩
  | .hbm, ⟨52, _⟩ => ⟨S1x1x1024, .f32⟩
  | .hbm, ⟨53, _⟩ => ⟨S8x4096x1024, .f32⟩
  | .hbm, ⟨54, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]

class Facts₀ : Prop where
  bcast_S_S8x4096x2 : S_.BroadcastsInDim S8x4096x2 (![] : Fin 0 → Fin S8x4096x2.rank)
  slices_S8x4096x2_S8x4096x1_0_0_0 : S8x4096x2.Slices ![0, 0, 0] S8x4096x1
  slices_S8x4096x2_S8x4096x1_0_0_1 : S8x4096x2.Slices ![0, 0, 1] S8x4096x1
  bcast_S8x4096x1_S8x4096x1024_0_1_2 : S8x4096x1.BroadcastsInDim S8x4096x1024 (![0, 1, 2] : Fin 3 → Fin S8x4096x1024.rank)
  reducesTo_S8x4096x1024_S8x4096_d2 : S8x4096x1024.ReducesTo [2] S8x4096
  h_S_ : 0 < S_.numel
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)
  dot_S8x4096x1024_S2x1024_S8x4096x2_2_1_01_0_n_n_wf : DotDims.WF S8x4096x1024 S2x1024 S8x4096x2 [2] [1] [0, 1] [0] [] []

variable [Facts₀]

def dot_S8x4096x1024_S2x1024_S8x4096x2_2_1_01_0_n_n : DotDims S8x4096x1024 S2x1024 S8x4096x2 where
  lhsContracting := [2]
  rhsContracting := [1]
  lhsNonContracting := [0, 1]
  rhsNonContracting := [0]
  lhsBatch := []
  rhsBatch := []
  wf := dot_S8x4096x1024_S2x1024_S8x4096x2_2_1_01_0_n_n_wf

class Facts : Prop extends Facts₀ where

variable [Facts]
-- ==== Proof.Spec.lean ====
/-
  The one function of a token's row that both programs compute, in the two arrangements they print it in.

  A token has two rows `a1`, `a2` of 1024 entries. Two gates are the logistic function of a logit, and a logit is
  the sum of the inner products of `a1` and `a2` with one row of each of two weight matrices. The fused row is
  `(1 + g1) · a1 + (1 + g2) · a2` in the kernel and `a1 + a2 + g1 · a1 + g2 · a2` in the reference. On the extended
  reals a sum distributes over a product only with care, but a gate is never negative — the logistic function takes
  values in [0, 1] at every extended real, the infinities included — and the sum of two nonnegative factors does
  distribute, whatever the other factor is. So the two fused rows are equal with no hypothesis on the inputs; what
  remains is a regrouping of a sum of four terms. The row is then normalized: its mean is subtracted, the result
  scaled by the reciprocal square root of the mean square plus an offset, and an affine map applied entrywise. That
  part is the same text on both sides.
-/
import Idealize.ShloMosaic.PureOps.Ideal
import Idealize.ShloMosaic.PureOps.Ideal.Laws

noncomputable section

open scoped BigOperators

namespace Cert.GatedNorm

open Idealize.ShloMosaic

/-- The float literals the two programs share, as the extended reals their words denote: one, the row length 1024,
    and the variance offset. Only the first is ever evaluated; the other two are the same word on both sides. -/
abbrev one : EReal := Ideal.ofBits .f32 0x3F800000#32
abbrev len : EReal := Ideal.ofBits .f32 0x44800000#32
abbrev eps : EReal := Ideal.ofBits .f32 0x3727C5AC#32

/-- The word of `1.0` denotes the extended real `1`. -/
theorem one_eq : one = 1 := by
  simp [one, Ideal.ofBits, Ideal.ieee]
  exact_mod_cast (by norm_num : (8388608 : ℝ) * ((2 : ℝ) ^ 23)⁻¹ = 1)

/-- The logistic function is nonnegative at every extended real: `0` at `-∞`, `1` at `+∞`, and the reciprocal of
    `1 + e^(-r)`, a positive real, at a real `r`. -/
theorem logistic_nonneg (x : EReal) : 0 ≤ Ideal.logistic x := by
  induction x using EReal.rec with
  | bot => rw [Ideal.logistic_bot]
  | coe r =>
    rw [Ideal.logistic_coe]
    exact_mod_cast (by positivity : (0 : ℝ) ≤ (1 + Real.exp (-r))⁻¹)
  | top => rw [Ideal.logistic_top]; exact zero_le_one

/-- A gate: the logistic function of the sum of the two rows' inner products with a weight row each. -/
def gate (a1 a2 w1 w2 : Fin 1024 → EReal) : EReal :=
  Ideal.logistic ((∑ k, a1 k * w1 k) + ∑ k, a2 k * w2 k)

theorem gate_nonneg (a1 a2 w1 w2 : Fin 1024 → EReal) : 0 ≤ gate a1 a2 w1 w2 := logistic_nonneg _

/-- The fused row as the kernel computes it: each row scaled by one plus its gate, then added. -/
def fusedK (l1 l2 : EReal) (a1 a2 : Fin 1024 → EReal) (k : Fin 1024) : EReal :=
  (one + l1) * a1 k + (one + l2) * a2 k

/-- The fused row as the reference computes it: the two rows added, then each gated row added on. -/
def fusedR (l1 l2 : EReal) (a1 a2 : Fin 1024 → EReal) (k : Fin 1024) : EReal :=
  a1 k + a2 k + l1 * a1 k + l2 * a2 k

/-- For nonnegative gates the two are equal: `(1 + l) · a = a + l · a` because both summands of the factor are
    nonnegative, and the four terms regroup by commutativity and associativity of the sum alone. -/
theorem fused_eq {l1 l2 : EReal} (h1 : 0 ≤ l1) (h2 : 0 ≤ l2) (a1 a2 : Fin 1024 → EReal) :
    fusedK l1 l2 a1 a2 = fusedR l1 l2 a1 a2 := by
  funext k
  unfold fusedK fusedR
  rw [one_eq, EReal.right_distrib_of_nonneg zero_le_one h1, EReal.right_distrib_of_nonneg zero_le_one h2, one_mul,
    one_mul, add_add_add_comm, ← add_assoc]

/-- The mean of a row: its sum divided by the row length. -/
def mean (f : Fin 1024 → EReal) : EReal := Ideal.div (∑ k, f k) len

/-- The row with its mean subtracted. -/
def centered (f : Fin 1024 → EReal) (k : Fin 1024) : EReal := f k - mean f

/-- The reciprocal square root of the centered row's mean square plus the offset. -/
def invStd (f : Fin 1024 → EReal) : EReal :=
  Ideal.rsqrt (Ideal.div (∑ k, centered f k * centered f k) len + eps)

/-- The normalized row under the affine map, at column `d`. -/
def normAt (f γ β : Fin 1024 → EReal) (d : Fin 1024) : EReal := centered f d * invStd f * γ d + β d

/-- The kernel's row: the normalization of its fused row. `w10`, `w20` are the weight rows of the first gate and
    `w11`, `w21` of the second. -/
def rowOut (a1 a2 w10 w20 w11 w21 γ β : Fin 1024 → EReal) (d : Fin 1024) : EReal :=
  normAt (fusedK (gate a1 a2 w10 w20) (gate a1 a2 w11 w21) a1 a2) γ β d

/-- The reference's row: the normalization of its fused row. -/
def rowRef (a1 a2 w10 w20 w11 w21 γ β : Fin 1024 → EReal) (d : Fin 1024) : EReal :=
  normAt (fusedR (gate a1 a2 w10 w20) (gate a1 a2 w11 w21) a1 a2) γ β d

/-- The two rows are one function. -/
theorem rowOut_eq_rowRef (a1 a2 w10 w20 w11 w21 γ β : Fin 1024 → EReal) (d : Fin 1024) :
    rowOut a1 a2 w10 w20 w11 w21 γ β d = rowRef a1 a2 w10 w20 w11 w21 γ β d := by
  unfold rowOut rowRef
  rw [fused_eq (gate_nonneg _ _ _ _) (gate_nonneg _ _ _ _)]

end Cert.GatedNorm

end
-- ==== Proof.KernelDot.lean ====
/-
  One of the kernel's two matrix products read at an entry. The block of 512 token rows is multiplied by the
  transposed weight matrix, 1024 by 2, into a zero accumulator; at the extended reals the entry at row `p` and
  gate `c` is the inner product of the block's row `p` with the weight matrix's column `c`, a sum over the 1024
  contracted positions. The change of float format before the product is the identity there.
-/
import proofs.«104263_j19765439496515_2_alg».proof.Proof.Gen.KernelIdeal
import Idealize.ShloMosaic.Lib.ValueIdx
import Idealize.ShloMosaic.PureOps.Ideal.Laws

noncomputable section

open scoped BigOperators

namespace Cert.KernelIdeal.Row

open Idealize.ShloMosaic Idealize.ShloMosaic.ValueIdx Cert.KernelIdeal Cert.KernelIdeal.Gen

/-- The product's left operand is read at the output's row … -/
theorem dot_lhs0 (j : S512x2.Idx) (q : dot_S512x1024_S1024x2_S512x2_1_0_0_1_n_n.contr.Idx) : (dot_S512x1024_S1024x2_S512x2_1_0_0_1_n_n.lhsIdx j q 0).val = (j 0).val := by
  unfold DotDims.lhsIdx
  rw [dif_neg (show ¬(0 : Fin S512x1024.rank) ∈ dot_S512x1024_S1024x2_S512x2_1_0_0_1_n_n.lhsBatch by decide), dif_pos (show (0 : Fin S512x1024.rank) ∈ dot_S512x1024_S1024x2_S512x2_1_0_0_1_n_n.lhsNonContracting by decide)]
  rfl
/-- … and the contracted position; -/
theorem dot_lhs1 (j : S512x2.Idx) (q : dot_S512x1024_S1024x2_S512x2_1_0_0_1_n_n.contr.Idx) : (dot_S512x1024_S1024x2_S512x2_1_0_0_1_n_n.lhsIdx j q 1).val = (q ⟨0, by decide⟩).val :=
  dot_S512x1024_S1024x2_S512x2_1_0_0_1_n_n.lhsIdx_val_of_single rfl j q
/-- the right operand at the contracted position … -/
theorem dot_rhs0 (j : S512x2.Idx) (q : dot_S512x1024_S1024x2_S512x2_1_0_0_1_n_n.contr.Idx) : (dot_S512x1024_S1024x2_S512x2_1_0_0_1_n_n.rhsIdx j q 0).val = (q ⟨0, by decide⟩).val :=
  dot_S512x1024_S1024x2_S512x2_1_0_0_1_n_n.rhsIdx_val_of_single rfl j q
/-- … and the output's column. -/
theorem dot_rhs1 (j : S512x2.Idx) (q : dot_S512x1024_S1024x2_S512x2_1_0_0_1_n_n.contr.Idx) : (dot_S512x1024_S1024x2_S512x2_1_0_0_1_n_n.rhsIdx j q 1).val = (j 1).val := by
  unfold DotDims.rhsIdx
  rw [dif_neg (show ¬(1 : Fin S1024x2.rank) ∈ dot_S512x1024_S1024x2_S512x2_1_0_0_1_n_n.rhsBatch by decide), dif_pos (show (1 : Fin S1024x2.rank) ∈ dot_S512x1024_S1024x2_S512x2_1_0_0_1_n_n.rhsNonContracting by decide)]
  rfl

/-- The product into a zero accumulator, at row `p` and gate `c`: the inner product over the 1024 positions. -/
theorem gateDot_apply {φ₁ φ₂ : FTy} (x : FVec Ideal S512x1024 φ₁) (w : FVec Ideal S1024x2 φ₂) (p : Fin 512) (c : Fin 2) :
    matmul dot_S512x1024_S1024x2_S512x2_1_0_0_1_n_n none x w (constant (F := Ideal) S512x2 .f32 0x00000000#32) (ix2 p c)
      = ∑ k : Fin 1024, x (ix2 p k) * w (ix2 k c) := by
  simp only [matmul]
  rw [Ideal.matmul_constant_zero_apply, ← Equiv.sum_comp (contrEquiv1 dot_S512x1024_S1024x2_S512x2_1_0_0_1_n_n 1024 rfl rfl).symm]
  refine Finset.sum_congr rfl fun k _ => ?_
  have hk := contrEquiv1_symm_val dot_S512x1024_S1024x2_S512x2_1_0_0_1_n_n 1024 rfl rfl k
  have el : dot_S512x1024_S1024x2_S512x2_1_0_0_1_n_n.lhsIdx (ix2 p c) ((contrEquiv1 dot_S512x1024_S1024x2_S512x2_1_0_0_1_n_n 1024 rfl rfl).symm k) = ix2 p k := funext fun a => Fin.ext (by
    match a with
    | ⟨0, _⟩ => exact dot_lhs0 _ _
    | ⟨1, _⟩ => exact (dot_lhs1 _ _).trans hk)
  have er : dot_S512x1024_S1024x2_S512x2_1_0_0_1_n_n.rhsIdx (ix2 p c) ((contrEquiv1 dot_S512x1024_S1024x2_S512x2_1_0_0_1_n_n 1024 rfl rfl).symm k) = ix2 k c := funext fun a => Fin.ext (by
    match a with
    | ⟨0, _⟩ => exact (dot_rhs0 _ _).trans hk
    | ⟨1, _⟩ => exact dot_rhs1 _ _)
  rw [el, er]

end Cert.KernelIdeal.Row

end
-- ==== Proof.LibColumnLayout.lean ====
/-
  Two layout operations read at an index given by coordinates, for a column kept as a trailing unit axis
  (`keepdims=True`): a vector `[a]` cast to a column `[a, 1]`, and a column `[a, 1]` broadcast along the rows of
  `[a, b]`. Each reads one element of its operand: the one with the same row.
-/
import Idealize.ShloMosaic.Lib.ValueLayout

namespace Cert.ColumnLayout

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.KernelRow.lean ====
/-
  The kernel's block of 512 output rows read at an entry, as the row function of the specification.

  The body's arithmetic is one pure term of the six loaded blocks. It is cut here into the values a reader would
  name: the two logits of a row (the sum of two matrix products), the column of one plus a gate, the fused block,
  the column of row means, the centered block, the column of reciprocal standard deviations, and the output block.
  Each is read at a row `p` (and a column) as the matching piece of the specification over row `p` of the two token
  blocks, the two columns of each transposed weight block and the one row of the scale and shift blocks. A row
  reduction is the sum over the row's 1024 entries; a column kept as a trailing unit axis reads the entry of its row.
-/
import proofs.«104263_j19765439496515_2_alg».proof.Proof.Gen.KernelIdeal.Skeleton
import proofs.«104263_j19765439496515_2_alg».proof.Proof.Spec
import proofs.«104263_j19765439496515_2_alg».proof.Proof.KernelDot
import proofs.«104263_j19765439496515_2_alg».proof.Proof.LibColumnLayout
import Idealize.ShloMosaic.Lib.ValueLayout

noncomputable section

open scoped BigOperators

namespace Cert.KernelIdeal.Row

open Idealize.ShloMosaic Idealize.ShloMosaic.ValueIdx Cert.KernelIdeal Cert.KernelIdeal.Gen Cert.GatedNorm Cert.ColumnLayout

/-! ## A row reduction, and the column of row means -/

/-- The sum along a row of a block, at row `p`: the sum of the row's 1024 entries. -/
theorem rowSum_apply (v : FVec Ideal S512x1024 .f32) (p : Fin 512) :
    multiReduction .add [1] S512 v 0x00000000#32 reduces_S512x1024_S512 (.inl rfl) rfl (ix1 p) = ∑ k : Fin 1024, v (ix2 p k) :=
  (Ideal.multiReduction_add_single v 0x00000000#32 reduces_S512x1024_S512 (.inl rfl) rfl (ix1 p)).trans
    (Finset.sum_congr rfl fun k _ => congrArg v (funext fun a => Fin.ext (by match a with | ⟨0, _⟩ => rfl | ⟨1, _⟩ => rfl)))

/-- The column of a block's row sums divided by the row length. -/
def meanCol (v : FVec Ideal S512x1024 .f32) : FVec Ideal S512x1 .f32 :=
  divf (shapeCast S512x1 (multiReduction .add [1] S512 v 0x00000000#32 reduces_S512x1024_S512 (.inl rfl) rfl) shapeCasts_S512_S512x1)
    (broadcast S512x1 (Scalar.ofBits .f32 0x44800000#32))

/-- At row `p` it is the mean of row `p`. -/
theorem meanCol_apply (v : FVec Ideal S512x1024 .f32) (p : Fin 512) (u : Fin 1) :
    meanCol v (ix2 p u) = mean (fun k => v (ix2 p k)) := by
  unfold meanCol mean
  rw [divf_apply, broadcast_apply, shapeCast_a_a1_apply, rowSum_apply]
  rfl

/-! ## The logits, the gates and the fused block -/

/-- The two logits of every row: the sum of the two products of the token blocks with the transposed weights. -/
def logitBlk (x0 x1 : Vec Ideal S512x1024 .f32) (x2 x3 : Vec Ideal S1024x2 .f32) : FVec Ideal S512x2 .f32 :=
  addf
    (matmul dot_S512x1024_S1024x2_S512x2_1_0_0_1_n_n none (truncf .bf16 (shapeCast S512x1024 x0 shapeCasts_S512x1024_S512x1024) bitsLt_bf16_f32)
      (truncf .bf16 (shapeCast S1024x2 x2 shapeCasts_S1024x2_S1024x2) bitsLt_bf16_f32) (constant S512x2 .f32 0x00000000#32))
    (matmul dot_S512x1024_S1024x2_S512x2_1_0_0_1_n_n none (truncf .bf16 (shapeCast S512x1024 x1 shapeCasts_S512x1024_S512x1024) bitsLt_bf16_f32)
      (truncf .bf16 (shapeCast S1024x2 x3 shapeCasts_S1024x2_S1024x2) bitsLt_bf16_f32) (constant S512x2 .f32 0x00000000#32))

/-- Logit `c` of row `p`: the inner products of the two token rows with column `c` of each weight block, added. -/
theorem logitBlk_apply (x0 x1 : Vec Ideal S512x1024 .f32) (x2 x3 : Vec Ideal S1024x2 .f32) (p : Fin 512) (c : Fin 2) :
    logitBlk x0 x1 x2 x3 (ix2 p c)
      = (∑ k : Fin 1024, x0 (ix2 p k) * x2 (ix2 k c)) + ∑ k : Fin 1024, x1 (ix2 p k) * x3 (ix2 k c) := by
  unfold logitBlk
  rw [addf_apply, gateDot_apply, gateDot_apply]
  simp only [truncf_apply, shapeCast_self]

/-- The column of one plus the first gate. -/
def scaleCol0 (lg : FVec Ideal S512x2 .f32) : FVec Ideal S512x1 .f32 :=
  addf (broadcast S512x1 (Scalar.ofBits .f32 0x3F800000#32)) (logistic (extractStridedSlice S512x1 ![0, 0] lg slices_S512x2_o0_0_S512x1))
/-- The column of one plus the second gate. -/
def scaleCol1 (lg : FVec Ideal S512x2 .f32) : FVec Ideal S512x1 .f32 :=
  addf (broadcast S512x1 (Scalar.ofBits .f32 0x3F800000#32)) (logistic (extractStridedSlice S512x1 ![0, 1] lg slices_S512x2_o0_1_S512x1))

theorem scaleCol0_apply (lg : FVec Ideal S512x2 .f32) (p : Fin 512) (u : Fin 1) :
    scaleCol0 lg (ix2 p u) = one + Ideal.logistic (lg (ix2 p (0 : Fin 2))) := by
  unfold scaleCol0
  rw [addf_apply, broadcast_apply]
  show one + FloatOps.logistic (extractStridedSlice S512x1 ![0, 0] lg slices_S512x2_o0_0_S512x1 (ix2 p u)) = _
  rw [slice2_axis1_apply 0 lg slices_S512x2_o0_0_S512x1 p u (0 : Fin 2) (by have := u.isLt; omega)]
  rfl
theorem scaleCol1_apply (lg : FVec Ideal S512x2 .f32) (p : Fin 512) (u : Fin 1) :
    scaleCol1 lg (ix2 p u) = one + Ideal.logistic (lg (ix2 p (1 : Fin 2))) := by
  unfold scaleCol1
  rw [addf_apply, broadcast_apply]
  show one + FloatOps.logistic (extractStridedSlice S512x1 ![0, 1] lg slices_S512x2_o0_1_S512x1 (ix2 p u)) = _
  rw [slice2_axis1_apply 1 lg slices_S512x2_o0_1_S512x1 p u (1 : Fin 2) (by have := u.isLt; show 1 = 1 + u.val; omega)]
  rfl

/-- The fused block: each token block scaled along its rows by one plus its gate, then added. -/
def fusedBlk (x0 x1 : Vec Ideal S512x1024 .f32) (x2 x3 : Vec Ideal S1024x2 .f32) : FVec Ideal S512x1024 .f32 :=
  addf
    (mulf (broadcastTo S512x1024 (scaleCol0 (logitBlk x0 x1 x2 x3)) broadcasts_S512x1_S512x1024)
      (shapeCast S512x1024 x0 shapeCasts_S512x1024_S512x1024))
    (mulf (broadcastTo S512x1024 (scaleCol1 (logitBlk x0 x1 x2 x3)) broadcasts_S512x1_S512x1024)
      (shapeCast S512x1024 x1 shapeCasts_S512x1024_S512x1024))

/-- Row `p` of the fused block is the kernel's fused row of the specification. -/
theorem fusedBlk_apply (x0 x1 : Vec Ideal S512x1024 .f32) (x2 x3 : Vec Ideal S1024x2 .f32) (p : Fin 512) (k : Fin 1024) :
    fusedBlk x0 x1 x2 x3 (ix2 p k)
      = fusedK (gate (fun k => x0 (ix2 p k)) (fun k => x1 (ix2 p k)) (fun k => x2 (ix2 k (0 : Fin 2))) (fun k => x3 (ix2 k (0 : Fin 2))))
          (gate (fun k => x0 (ix2 p k)) (fun k => x1 (ix2 p k)) (fun k => x2 (ix2 k (1 : Fin 2))) (fun k => x3 (ix2 k (1 : Fin 2))))
          (fun k => x0 (ix2 p k)) (fun k => x1 (ix2 p k)) k := by
  unfold fusedBlk fusedK gate
  rw [addf_apply, mulf_apply, mulf_apply, broadcastTo_a1_ab_apply, broadcastTo_a1_ab_apply, scaleCol0_apply, scaleCol1_apply,
    logitBlk_apply, logitBlk_apply]
  simp only [shapeCast_self]

/-! ## Centering, the reciprocal standard deviation, and the output -/

/-- A block with each row's mean subtracted from the row. -/
def centerBlk (v : FVec Ideal S512x1024 .f32) : FVec Ideal S512x1024 .f32 :=
  subf v (broadcastTo S512x1024 (meanCol v) broadcasts_S512x1_S512x1024)

theorem centerBlk_apply (v : FVec Ideal S512x1024 .f32) (p : Fin 512) (q : Fin 1024) :
    centerBlk v (ix2 p q) = centered (fun k => v (ix2 p k)) q := by
  unfold centerBlk centered
  rw [subf_apply, broadcastTo_a1_ab_apply, meanCol_apply]

/-- The column of reciprocal square roots of a centered block's row mean squares plus the offset. -/
def invCol (w : FVec Ideal S512x1024 .f32) : FVec Ideal S512x1 .f32 :=
  rsqrt (addf (meanCol (mulf w w)) (broadcast S512x1 (Scalar.ofBits .f32 0x3727C5AC#32)))

theorem invCol_apply (v : FVec Ideal S512x1024 .f32) (p : Fin 512) (u : Fin 1) :
    invCol (centerBlk v) (ix2 p u) = invStd (fun k => v (ix2 p k)) := by
  unfold invCol invStd
  show FloatOps.rsqrt (addf (meanCol (mulf (centerBlk v) (centerBlk v))) (broadcast S512x1 (Scalar.ofBits .f32 0x3727C5AC#32)) (ix2 p u)) = _
  rw [addf_apply, broadcast_apply, meanCol_apply]
  simp only [mulf_apply, centerBlk_apply]
  rfl

/-- The output block: the centered block scaled along its rows, then by the scale row and shifted by the shift row. -/
theorem outBlk_apply (w : FVec Ideal S512x1024 .f32) (r : FVec Ideal S512x1 .f32) (x4 x5 : Vec Ideal S1x1024 .f32)
    (p : Fin 512) (q : Fin 1024) :
    k0_pay1 w r x4 x5 (ix2 p q)
      = w (ix2 p q) * r (ix2 p (0 : Fin 1)) * x4 (ix2 (0 : Fin 1) q) + x5 (ix2 (0 : Fin 1) q) := by
  unfold k0_pay1
  rw [addf_apply, mulf_apply, mulf_apply, broadcastTo_a1_ab_apply, broadcastTo_1b_ab_apply, broadcastTo_1b_ab_apply]
  simp only [shapeCast_self]

/-! ## The payloads are these values -/

theorem pay2_eq (x0 x1 : Vec Ideal S512x1024 .f32) (x2 x3 : Vec Ideal S1024x2 .f32) :
    k0_pay2 x0 x1 x2 x3 = centerBlk (fusedBlk x0 x1 x2 x3) := rfl

theorem pay3_eq (x0 x1 : Vec Ideal S512x1024 .f32) (x2 x3 : Vec Ideal S1024x2 .f32) :
    k0_pay3 x0 x1 x2 x3 = invCol (k0_pay2 x0 x1 x2 x3) := rfl

/-- THE BLOCK AT AN ENTRY: row `p`, column `q` of what the body stores is the specification's row function of row `p`
    of the two token blocks, the weight blocks' columns and the scale and shift rows, at column `q`. -/
theorem block_apply (x0 x1 : Vec Ideal S512x1024 .f32) (x2 x3 : Vec Ideal S1024x2 .f32) (x4 x5 : Vec Ideal S1x1024 .f32)
    (p : Fin 512) (q : Fin 1024) :
    k0_pay1 (k0_pay2 x0 x1 x2 x3) (k0_pay3 x0 x1 x2 x3) x4 x5 (ix2 p q)
      = rowOut (fun k => x0 (ix2 p k)) (fun k => x1 (ix2 p k)) (fun k => x2 (ix2 k (0 : Fin 2))) (fun k => x3 (ix2 k (0 : Fin 2)))
          (fun k => x2 (ix2 k (1 : Fin 2))) (fun k => x3 (ix2 k (1 : Fin 2))) (fun k => x4 (ix2 (0 : Fin 1) k)) (fun k => x5 (ix2 (0 : Fin 1) k)) q := by
  rw [outBlk_apply, pay3_eq, pay2_eq, invCol_apply, centerBlk_apply]
  unfold rowOut normAt
  simp only [fusedBlk_apply]

end Cert.KernelIdeal.Row

end
-- ==== Proof.KernelBlocks.lean ====
/-
  From blocks to the array: what the region leaves in its output array, as one function of the six arrays it reads.

  The grid has 64 points. At point `t` the two token windows and the output window hold rows `512·t … 512·t + 511` of
  their arrays, all 1024 columns; the two transposed weight arrays and the scale and shift rows are held whole at
  every point. So what point `t` writes back is the block, at those rows, of the array whose row `r` is the
  specification's row function of row `r` of the two token arrays; and the 64 blocks tile the 32768 rows, row `r`
  lying in the block of point `r / 512`.
-/
import proofs.«104263_j19765439496515_2_alg».proof.Proof.Gen.KernelIdeal.Frame
import proofs.«104263_j19765439496515_2_alg».proof.Proof.KernelRow
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.Row Cert.GatedNorm

variable (m : (ℓ : Loc nD τ sig) → Buf (Elt Ideal) ℓ)

theorem hz : (![0, 0] : Fin 2 → Nat) = fun _ => 0 := funext fun a => by fin_cases a <;> rfl

/-- The printed index maps, decided over the grid: the token windows move with the output window along the rows,
    every other block index is zero, and the output's row block index stays below 64. -/
theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (1 : Fin 2) = 0 ∧ win0_6.index t (0 : Fin 2) ≤ 63 :=
  (by decide +kernel : ∀ t : Fin grid0.N, _)

/-- Every row block is SOME point's. -/
theorem idx_onto : ∀ q0 : Fin 64, ∃ t : Fin cfg0.N, win0_6.index t = ![q0.val, 0] :=
  (by decide +kernel : ∀ q0 : Fin 64, ∃ t : Fin grid0.N, win0_6.index t = ![q0.val, 0])

/-! ## Each input block is its array read at the output block's rows -/

/-- The first token window's block at point `t`, at `(p, k)`, is its array at row `r` of the output's block. -/
theorem tok0_apply (c : Dev nD) (t : Fin cfg0.N) (p : Fin 512) (k : Fin 1024) (r : Fin 32768)
    (hr : r.val = win0_6.index t (0 : Fin 2) * 512 + p.val) :
    (iblk m c 0 t : Vec Ideal S512x1024 .f32) (ix2 p k) = (V m c main_v0 : S32768x1024.Idx → Elt Ideal .f32) (ix2 r k) := by
  obtain ⟨e00, e01, -⟩ := idx_facts t
  unfold iblk
  rw [View.read_apply]
  show V m c main_v0 _ = V m c main_v0 _
  refine congrArg (V m c main_v0) (funext fun a => Fin.ext ?_)
  match a with
  | ⟨0, _⟩ => show win0_0.index t (0 : Fin 2) * 512 + 1 * p.val = r.val; omega
  | ⟨1, _⟩ => show win0_0.index t (1 : Fin 2) * 1024 + 1 * k.val = k.val; omega

/-- The second token window's likewise. -/
theorem tok1_apply (c : Dev nD) (t : Fin cfg0.N) (p : Fin 512) (k : Fin 1024) (r : Fin 32768)
    (hr : r.val = win0_6.index t (0 : Fin 2) * 512 + p.val) :
    (iblk m c 1 t : Vec Ideal S512x1024 .f32) (ix2 p k) = (V m c main_v1 : S32768x1024.Idx → Elt Ideal .f32) (ix2 r k) := by
  obtain ⟨-, -, e10, e11, -⟩ := idx_facts t
  unfold iblk
  rw [View.read_apply]
  show V m c main_v1 _ = V m c main_v1 _
  refine congrArg (V m c main_v1) (funext fun a => Fin.ext ?_)
  match a with
  | ⟨0, _⟩ => show win0_1.index t (0 : Fin 2) * 512 + 1 * p.val = r.val; omega
  | ⟨1, _⟩ => show win0_1.index t (1 : Fin 2) * 1024 + 1 * k.val = k.val; omega

/-- The two transposed weight arrays are held whole … -/
theorem wt0_apply (c : Dev nD) (t : Fin cfg0.N) (k : Fin 1024) (g : Fin 2) :
    (iblk m c 2 t : Vec Ideal S1024x2 .f32) (ix2 k g) = (V m c main_v2 : S1024x2.Idx → Elt Ideal .f32) (ix2 k g) := by
  obtain ⟨-, -, -, -, e20, e21, -⟩ := idx_facts t
  unfold iblk
  rw [View.read_apply]
  show V m c main_v2 _ = V m c main_v2 _
  refine congrArg (V m c main_v2) (funext fun a => Fin.ext ?_)
  match a with
  | ⟨0, _⟩ => show win0_2.index t (0 : Fin 2) * 1024 + 1 * k.val = k.val; omega
  | ⟨1, _⟩ => show win0_2.index t (1 : Fin 2) * 2 + 1 * g.val = g.val; omega
theorem wt1_apply (c : Dev nD) (t : Fin cfg0.N) (k : Fin 1024) (g : Fin 2) :
    (iblk m c 3 t : Vec Ideal S1024x2 .f32) (ix2 k g) = (V m c main_v3 : S1024x2.Idx → Elt Ideal .f32) (ix2 k g) := by
  obtain ⟨-, -, -, -, -, -, e30, e31, -⟩ := idx_facts t
  unfold iblk
  rw [View.read_apply]
  show V m c main_v3 _ = V m c main_v3 _
  refine congrArg (V m c main_v3) (funext fun a => Fin.ext ?_)
  match a with
  | ⟨0, _⟩ => show win0_3.index t (0 : Fin 2) * 1024 + 1 * k.val = k.val; omega
  | ⟨1, _⟩ => show win0_3.index t (1 : Fin 2) * 2 + 1 * g.val = g.val; omega

/-- … and so are the scale and the shift row. -/
theorem scale_apply (c : Dev nD) (t : Fin cfg0.N) (u : Fin 1) (k : Fin 1024) :
    (iblk m c 4 t : Vec Ideal S1x1024 .f32) (ix2 u k) = (V m c main_v4 : S1x1024.Idx → Elt Ideal .f32) (ix2 u k) := by
  obtain ⟨-, -, -, -, -, -, -, -, e40, e41, -⟩ := idx_facts t
  unfold iblk
  rw [View.read_apply]
  show V m c main_v4 _ = V m c main_v4 _
  refine congrArg (V m c main_v4) (funext fun a => Fin.ext ?_)
  match a with
  | ⟨0, _⟩ => show win0_4.index t (0 : Fin 2) * 1 + 1 * u.val = u.val; omega
  | ⟨1, _⟩ => show win0_4.index t (1 : Fin 2) * 1024 + 1 * k.val = k.val; omega
theorem shift_apply (c : Dev nD) (t : Fin cfg0.N) (u : Fin 1) (k : Fin 1024) :
    (iblk m c 5 t : Vec Ideal S1x1024 .f32) (ix2 u k) = (V m c main_v5 : S1x1024.Idx → Elt Ideal .f32) (ix2 u k) := by
  obtain ⟨-, -, -, -, -, -, -, -, -, -, e50, e51, -⟩ := idx_facts t
  unfold iblk
  rw [View.read_apply]
  show V m c main_v5 _ = V m c main_v5 _
  refine congrArg (V m c main_v5) (funext fun a => Fin.ext ?_)
  match a with
  | ⟨0, _⟩ => show win0_5.index t (0 : Fin 2) * 1 + 1 * u.val = u.val; omega
  | ⟨1, _⟩ => show win0_5.index t (1 : Fin 2) * 1024 + 1 * k.val = k.val; omega

/-! ## The output array as one function -/

/-- The array the region leaves: row `r` is the specification's row function of row `r` of the two token arrays, the
    columns of the transposed weight arrays and the scale and shift rows. -/
def G6 (X1 X2 : S32768x1024.Idx → Elt Ideal .f32) (T1 T2 : S1024x2.Idx → Elt Ideal .f32) (g s : S1x1024.Idx → Elt Ideal .f32) :
    S32768x1024.Idx → Elt Ideal .f32 := fun i =>
  rowOut (fun k => X1 (ix2 (⟨(i 0).val, (i 0).isLt⟩ : Fin 32768) k)) (fun k => X2 (ix2 (⟨(i 0).val, (i 0).isLt⟩ : Fin 32768) k))
    (fun k => T1 (ix2 k (0 : Fin 2))) (fun k => T2 (ix2 k (0 : Fin 2))) (fun k => T1 (ix2 k (1 : Fin 2))) (fun k => T2 (ix2 k (1 : Fin 2)))
    (fun k => g (ix2 (0 : Fin 1) k)) (fun k => s (ix2 (0 : Fin 1) k)) (⟨(i 1).val, (i 1).isLt⟩ : Fin 1024)

/-- At an index whose coordinates are `r` and `d`. -/
theorem G6_at (X1 X2 : S32768x1024.Idx → Elt Ideal .f32) (T1 T2 : S1024x2.Idx → Elt Ideal .f32) (g s : S1x1024.Idx → Elt Ideal .f32)
    (i : S32768x1024.Idx) (r : Fin 32768) (d : Fin 1024) (h0 : (i 0).val = r.val) (h1 : (i 1).val = d.val) :
    G6 X1 X2 T1 T2 g s i
      = rowOut (fun k => X1 (ix2 r k)) (fun k => X2 (ix2 r k)) (fun k => T1 (ix2 k (0 : Fin 2))) (fun k => T2 (ix2 k (0 : Fin 2)))
          (fun k => T1 (ix2 k (1 : Fin 2))) (fun k => T2 (ix2 k (1 : Fin 2))) (fun k => g (ix2 (0 : Fin 1) k)) (fun k => s (ix2 (0 : Fin 1) k)) d := by
  obtain rfl : i = ix2 r d := funext fun a => Fin.ext (by match a with | ⟨0, _⟩ => exact h0 | ⟨1, _⟩ => exact h1)
  rfl

/-- WHAT POINT `t` WRITES BACK is block `t` of that array of the arrays the region finds. -/
theorem flushed_eq (c : Dev nD) (t : Fin cfg0.N) :
    (dats m 0 c).flushed 6 t = ((cfg0.win 6).blk t).view.read (Elt Ideal)
      (G6 (V m c main_v0) (V m c main_v1) (V m c main_v2) (V m c main_v3) (V m c main_v4) (V m c main_v5)) := by
  show (cfg0.win 6).cut (grid0.coords t) ((dats m 0 c).after 6 t) = _
  rw [after0_6]
  unfold out0_6
  rw [View.canon_unit_zero hz]
  simp only [View.ld_unit_zero (S := S512x1024) hz, View.ld_unit_zero (S := S1024x2) hz, View.ld_unit_zero (S := S1x1024) hz]
  obtain ⟨-, -, -, -, -, -, -, -, -, -, -, -, e61, e6b⟩ := idx_facts t
  funext j
  obtain ⟨p, q, rfl⟩ : ∃ (p : Fin 512) (q : Fin 1024), j = ix2 p q := ⟨j 0, j 1, eq_ix2 j⟩
  have hr : win0_6.index t (0 : Fin 2) * 512 + p.val < 32768 := by have := p.isLt; omega
  refine (block_apply (iblk m c 0 t) (iblk m c 1 t) (iblk m c 2 t) (iblk m c 3 t) (iblk m c 4 t) (iblk m c 5 t) p q).trans ?_
  refine Eq.trans ?_ (G6_at (V m c main_v0) (V m c main_v1) (V m c main_v2) (V m c main_v3) (V m c main_v4) (V m c main_v5)
    (((cfg0.win 6).blk t).view.emb (ix2 p q)) ⟨win0_6.index t (0 : Fin 2) * 512 + p.val, hr⟩ q
    (by show win0_6.index t (0 : Fin 2) * 512 + 1 * p.val = win0_6.index t (0 : Fin 2) * 512 + p.val; omega)
    (by show win0_6.index t (1 : Fin 2) * 1024 + 1 * q.val = q.val; omega)).symm
  simp only [tok0_apply m c t p _ ⟨win0_6.index t (0 : Fin 2) * 512 + p.val, hr⟩ rfl,
    tok1_apply m c t p _ ⟨win0_6.index t (0 : Fin 2) * 512 + p.val, hr⟩ rfl, wt0_apply m c t, wt1_apply m c t,
    scale_apply m c t, shift_apply m c t]

/-! ## The blocks tile the array -/

/-- An index of the array is in point `t`'s block iff each coordinate is in the block's range on its axis. -/
theorem mem_blk (t : Fin cfg0.N) (i : S32768x1024.Idx) :
    i ∈ ((cfg0.win 6).blk t).view.set ↔ ∀ a : Fin 2, win0_6.index t a * S512x1024.size a ≤ (i a).val ∧ (i a).val < win0_6.index t a * S512x1024.size a + S512x1024.size a := by
  show i ∈ ((View.whole main_v6).slice (win0_6.rect t)).set ↔ _
  rw [View.set_slice_whole, Rect.mem_set_unit]
  exact Iff.rfl

/-- Every index is in the block of the point whose row block holds its row. -/
theorem covered (i : S32768x1024.Idx) :
    ∃ t : Fin cfg0.N, (cfg0.win 6).flush t = true ∧ i ∈ ((cfg0.win 6).blk t).view.set := by
  have hi0 : (i 0).val < 32768 := (i 0).isLt
  have hi1 : (i 1).val < 1024 := (i 1).isLt
  obtain ⟨t, ht⟩ := idx_onto ⟨(i 0).val / 512, by omega⟩
  have q0 : win0_6.index t (0 : Fin 2) = (i 0).val / 512 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 1024 ≤ (i 1).val ∧ (i 1).val < win0_6.index t (1 : Fin 2) * 1024 + 1024; omega

/-- THE ARRAY after the region: that function of the arrays the region finds. -/
theorem final6 (c : Dev nD) : (dats m 0 c).arrAt 6 cfg0.N
    = G6 (V m c main_v0) (V m c main_v1) (V m c main_v2) (V m c main_v3) (V m c main_v4) (V m c main_v5) :=
  (dats m 0 c).arrAt_eq_of_cover 6 _ (fun t _ => flushed_eq m c t) covered

end Cert.KernelIdeal.Blocks

end
-- ==== Proof.Result.lean ====
/-
  The result both programs end with, as one function of the six argument arrays: at token `(b, t)` and column `d` it
  is the specification's row function of the token's row in each of the two token arrays, the two rows of each weight
  matrix and the scale and shift vectors. It is stated in the reference's arrangement; the kernel's is equal to it.
-/
import proofs.«104263_j19765439496515_2_alg».proof.Proof.Spec
import Idealize.ShloMosaic.Lib.ValueIdx

noncomputable section

namespace Cert.GatedNorm

open Idealize.ShloMosaic Idealize.ShloMosaic.ValueIdx

/-- The shapes of the arguments: the token arrays, the weight matrices, and the scale and shift vectors. -/
abbrev TokS : Shape := ⟨3, ![8, 4096, 1024]⟩
abbrev WtS : Shape := ⟨2, ![2, 1024]⟩
abbrev RowS : Shape := ⟨1, ![1024]⟩

/-- The result array. -/
def result (x0 x1 : TokS.Idx → EReal) (w1 w2 : WtS.Idx → EReal) (γ β : RowS.Idx → EReal) : TokS.Idx → EReal := fun i =>
  rowRef (fun k => x0 (ix3 (⟨(i 0).val, (i 0).isLt⟩ : Fin 8) (⟨(i 1).val, (i 1).isLt⟩ : Fin 4096) k))
    (fun k => x1 (ix3 (⟨(i 0).val, (i 0).isLt⟩ : Fin 8) (⟨(i 1).val, (i 1).isLt⟩ : Fin 4096) k))
    (fun k => w1 (ix2 (0 : Fin 2) k)) (fun k => w2 (ix2 (0 : Fin 2) k)) (fun k => w1 (ix2 (1 : Fin 2) k)) (fun k => w2 (ix2 (1 : Fin 2) k))
    (fun k => γ (ix1 k)) (fun k => β (ix1 k)) (⟨(i 2).val, (i 2).isLt⟩ : Fin 1024)

/-- At the index of token `(b, t)` and column `d`. -/
theorem result_at (x0 x1 : TokS.Idx → EReal) (w1 w2 : WtS.Idx → EReal) (γ β : RowS.Idx → EReal)
    (b : Fin 8) (t : Fin 4096) (d : Fin 1024) :
    result x0 x1 w1 w2 γ β (ix3 b t d)
      = rowRef (fun k => x0 (ix3 b t k)) (fun k => x1 (ix3 b t k)) (fun k => w1 (ix2 (0 : Fin 2) k)) (fun k => w2 (ix2 (0 : Fin 2) k))
          (fun k => w1 (ix2 (1 : Fin 2) k)) (fun k => w2 (ix2 (1 : Fin 2) k)) (fun k => γ (ix1 k)) (fun k => β (ix1 k)) d := rfl

end Cert.GatedNorm

end
-- ==== Proof.KernelRun.lean ====
/-
  The kernel's whole program read back: its result array is the result function of the argument arrays.

  Before the region the program reshapes each token array [8, 4096, 1024] to [32768, 1024] (token `(b, t)` becomes row
  `4096·b + t`), transposes each weight matrix, and gives the scale and shift vectors a leading unit axis; after it,
  the region's array is reshaped back to [8, 4096, 1024]. So the result at token `(b, t)` and column `d` is the
  region's array at row `4096·b + t`, whose row function reads row `(b, t)` of the token arguments, the rows of the
  weight matrices (the columns of their transposes) and the two vectors: the specification's row function in the
  kernel's arrangement, which equals the reference's.
-/
import proofs.«104263_j19765439496515_2_alg».proof.Proof.Gen.KernelIdeal.Frame
import proofs.«104263_j19765439496515_2_alg».proof.Proof.KernelBlocks
import proofs.«104263_j19765439496515_2_alg».proof.Proof.Result
import Idealize.ShloMosaic.Lib.StableHlo.Run
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.KernelIdeal.Blocks Cert.GatedNorm

variable (m : (ℓ : Loc nD τ sig) → Buf (Elt Ideal) ℓ) (ρ : Dev nD → PrngReg)

/-! ## The arrays the region finds, from the arguments -/

theorem V_tok0 (c : Dev nD) : (V m c main_v0 : S32768x1024.Idx → Elt Ideal .f32)
    = fun i => shapeCast S32768x1024 (m ((c : Thread nD τ).loc main_arg0)) shapeCasts_S8x4096x1024_S32768x1024 i := by
  show StableHlo.after hostOps0 (fun b => m (c, b)) (Proc.devRef .tc main_v0) = _
  after_results
  rfl
theorem V_tok1 (c : Dev nD) : (V m c main_v1 : S32768x1024.Idx → Elt Ideal .f32)
    = fun i => shapeCast S32768x1024 (m ((c : Thread nD τ).loc main_arg1)) shapeCasts_S8x4096x1024_S32768x1024 i := by
  show StableHlo.after hostOps0 (fun b => m (c, b)) (Proc.devRef .tc main_v1) = _
  after_results
  rfl
theorem V_wt0 (c : Dev nD) : (V m c main_v2 : S1024x2.Idx → Elt Ideal .f32)
    = transpose S1024x2 [1, 0] (m ((c : Thread nD τ).loc main_arg2)) transposes_S2x1024_S1024x2_1_0 := by
  show StableHlo.after hostOps0 (fun b => m (c, b)) (Proc.devRef .tc main_v2) = _
  after_results
theorem V_wt1 (c : Dev nD) : (V m c main_v3 : S1024x2.Idx → Elt Ideal .f32)
    = transpose S1024x2 [1, 0] (m ((c : Thread nD τ).loc main_arg3)) transposes_S2x1024_S1024x2_1_0 := by
  show StableHlo.after hostOps0 (fun b => m (c, b)) (Proc.devRef .tc main_v3) = _
  after_results
theorem V_scale (c : Dev nD) : (V m c main_v4 : S1x1024.Idx → Elt Ideal .f32)
    = fun i => shapeCast S1x1024 (m ((c : Thread nD τ).loc main_arg4)) shapeCasts_S1024_S1x1024 i := by
  show StableHlo.after hostOps0 (fun b => m (c, b)) (Proc.devRef .tc main_v4) = _
  after_results
  rfl
theorem V_shift (c : Dev nD) : (V m c main_v5 : S1x1024.Idx → Elt Ideal .f32)
    = fun i => shapeCast S1x1024 (m ((c : Thread nD τ).loc main_arg5)) shapeCasts_S1024_S1x1024 i := by
  show StableHlo.after hostOps0 (fun b => m (c, b)) (Proc.devRef .tc main_v5) = _
  after_results
  rfl

/-- Row `4096·b + t` of a reshaped token array is row `(b, t)` of the argument. -/
theorem tok0_at (c : Dev nD) (b : Fin 8) (t : Fin 4096) (k : Fin 1024) (r : Fin 32768) (hr : r.val = b.val * 4096 + t.val) :
    (V m c main_v0 : S32768x1024.Idx → Elt Ideal .f32) (ix2 r k) = ((m ((c : Thread nD τ).loc main_arg0)) : S8x4096x1024.Idx → Elt Ideal .f32) (ix3 b t k) := by
  rw [V_tok0]
  exact shapeCast_apply _ _ _ _ (by
    show ((⟨3, ![8, 4096, 1024]⟩ : Shape).rowMajor (ix3 b t k)).val = ((⟨2, ![32768, 1024]⟩ : Shape).rowMajor (ix2 r k)).val
    rw [Shape.rowMajor_val_three, Shape.rowMajor_val_two]
    show (b.val * 4096 + t.val) * 1024 + k.val = r.val * 1024 + k.val
    rw [hr])
theorem tok1_at (c : Dev nD) (b : Fin 8) (t : Fin 4096) (k : Fin 1024) (r : Fin 32768) (hr : r.val = b.val * 4096 + t.val) :
    (V m c main_v1 : S32768x1024.Idx → Elt Ideal .f32) (ix2 r k) = ((m ((c : Thread nD τ).loc main_arg1)) : S8x4096x1024.Idx → Elt Ideal .f32) (ix3 b t k) := by
  rw [V_tok1]
  exact shapeCast_apply _ _ _ _ (by
    show ((⟨3, ![8, 4096, 1024]⟩ : Shape).rowMajor (ix3 b t k)).val = ((⟨2, ![32768, 1024]⟩ : Shape).rowMajor (ix2 r k)).val
    rw [Shape.rowMajor_val_three, Shape.rowMajor_val_two]
    show (b.val * 4096 + t.val) * 1024 + k.val = r.val * 1024 + k.val
    rw [hr])
/-- Column `g` of a transposed weight matrix is row `g` of the argument. -/
theorem wt0_at (c : Dev nD) (k : Fin 1024) (g : Fin 2) :
    (V m c main_v2 : S1024x2.Idx → Elt Ideal .f32) (ix2 k g) = ((m ((c : Thread nD τ).loc main_arg2)) : S2x1024.Idx → Elt Ideal .f32) (ix2 g k) := by
  rw [V_wt0]
  exact transpose_ix2_apply _ _ k g
theorem wt1_at (c : Dev nD) (k : Fin 1024) (g : Fin 2) :
    (V m c main_v3 : S1024x2.Idx → Elt Ideal .f32) (ix2 k g) = ((m ((c : Thread nD τ).loc main_arg3)) : S2x1024.Idx → Elt Ideal .f32) (ix2 g k) := by
  rw [V_wt1]
  exact transpose_ix2_apply _ _ k g
/-- The one row of the scale and of the shift is the argument vector. -/
theorem scale_at (c : Dev nD) (u : Fin 1) (k : Fin 1024) :
    (V m c main_v4 : S1x1024.Idx → Elt Ideal .f32) (ix2 u k) = ((m ((c : Thread nD τ).loc main_arg4)) : S1024.Idx → Elt Ideal .f32) (ix1 k) := by
  rw [V_scale]
  exact shapeCast_a_1a_apply _ _ u k
theorem shift_at (c : Dev nD) (u : Fin 1) (k : Fin 1024) :
    (V m c main_v5 : S1x1024.Idx → Elt Ideal .f32) (ix2 u k) = ((m ((c : Thread nD τ).loc main_arg5)) : S1024.Idx → Elt Ideal .f32) (ix1 k) := by
  rw [V_shift]
  exact shapeCast_a_1a_apply _ _ u k

/-! ## The line after the region -/

/-- The program's result is the region's array reshaped to the tokens' three axes. -/
theorem tail_eq (c : Dev nD) : Pipeline.afterTail₀ cfgs (dats m) 0 (V0 m) [hostOps1] c main_v7
    = fun i => shapeCast S8x4096x1024 ((dats m 0 c).arrAt 6 cfg0.N) shapeCasts_S32768x1024_S8x4096x1024 i := by
  unfold Pipeline.afterTail₀
  show StableHlo.after hostOps1 _ (Proc.devRef .tc main_v7) = _
  after_results
  rw [show Pipeline.withArrays (cfgs 0).spec c (V0 m c) (fun w => (dats m 0 c).arrAt w (cfgs 0).N) (Proc.devRef .tc main_v6)
      = (dats m 0 c).arrAt 6 cfg0.N from Pipeline.withArrays_arr (cfgs 0).spec launch0.win.arr_inj c _ _ 6]
  rfl

/-- THE RESULT ARRAY is the result function of the argument arrays. -/
theorem out_eq (c : Dev nD) :
    (fun i => shapeCast S8x4096x1024 ((dats m 0 c).arrAt 6 cfg0.N) shapeCasts_S32768x1024_S8x4096x1024 i)
      = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [final6]
  funext i
  obtain ⟨b, t, d, rfl⟩ : ∃ (b : Fin 8) (t : Fin 4096) (d : Fin 1024), i = ix3 b t d := ⟨i 0, i 1, i 2, eq_ix3 i⟩
  have hr : b.val * 4096 + t.val < 32768 := by have := b.isLt; have := t.isLt; omega
  rw [result_at, ← rowOut_eq_rowRef]
  refine (shapeCast_apply _ _ (ix3 b t d) (ix2 (⟨b.val * 4096 + t.val, hr⟩ : Fin 32768) d) (by
    show ((⟨2, ![32768, 1024]⟩ : Shape).rowMajor (ix2 (⟨b.val * 4096 + t.val, hr⟩ : Fin 32768) d)).val
      = ((⟨3, ![8, 4096, 1024]⟩ : Shape).rowMajor (ix3 b t d)).val
    rw [Shape.rowMajor_val_three, Shape.rowMajor_val_two]
    rfl)).trans ?_
  rw [G6_at _ _ _ _ _ _ _ ⟨b.val * 4096 + t.val, hr⟩ d rfl rfl]
  simp only [tok0_at m c b t _ ⟨b.val * 4096 + t.val, hr⟩ rfl, tok1_at m c b t _ ⟨b.val * 4096 + t.val, hr⟩ rfl,
    wt0_at m c, wt1_at m c, scale_at m c, shift_at m c]

/-! ## The run, read -/

/-- The frame run re-posted: the result array at the result function of the arguments, the arguments unchanged. -/
theorem run : θ_run defs (onTc (τ := τ) (main (F := Ideal))) ⟨m, fun _ => 0, ρ⟩ fun r => ∀ c : Dev nD,
      r.2.mem ((c : Thread nD τ).loc main_v7)
        = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c =>
    ⟨((h c).2 main_v7 (Pipeline.mem_restRefs_of main_v7 (by decide) (by decide))).trans ((tail_eq m c).trans (out_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Whole

end
-- ==== Proof.RefRow.lean ====
/-
  The reference's result read at an entry, as the row function of the specification.

  The reference is a straight line of array operations on the three-axis token arrays. Read at token `(b, t)` its
  stages are, in order: the two logits (two contractions over the 1024 positions against a row of each weight
  matrix, added), the gates (one over one plus the exponential of the negated logit, which is the logistic function
  by definition), the fused row in the reference's arrangement, its mean, the centered row, the reciprocal square root
  of the mean square plus the offset, and the affine map. Every broadcast reads the entry of its token, and every sum
  over the last axis is the sum over that token's 1024 entries plus a zero initial value.
-/
import proofs.«104263_j19765439496515_2_alg».proof.Proof.Gen.ReferenceIdeal.Read
import proofs.«104263_j19765439496515_2_alg».proof.Proof.Spec
import Idealize.ShloMosaic.Lib.ValueIdx

noncomputable section

open scoped BigOperators

namespace Cert.ReferenceIdeal.Row

open Idealize.ShloMosaic Idealize.ShloMosaic.ValueIdx Cert.ReferenceIdeal Cert.ReferenceIdeal.Read Cert.GatedNorm

variable (x0 x1 : (⟨S8x4096x1024, .f32⟩ : BufTy).Contents (Elt Ideal)) (x2 x3 : (⟨S2x1024, .f32⟩ : BufTy).Contents (Elt Ideal)) (x4 x5 : (⟨S1024, .f32⟩ : BufTy).Contents (Elt Ideal))

/-- Logit `c` of token `(b, t)`: the inner products of its two rows with row `c` of each weight matrix, added. -/
theorem logit_apply (b : Fin 8) (t : Fin 4096) (c : Fin 2) :
    val_main_v2 (F := Ideal) x0 x1 x2 x3 (ix3 b t c)
      = (∑ k : Fin 1024, x0 (ix3 b t k) * x2 (ix2 c k)) + ∑ k : Fin 1024, x1 (ix3 b t k) * x3 (ix2 c k) := by
  rw [val_main_v2_apply, val_main_v0_apply, val_main_v1_apply]
  have el0 : ∀ k, lidx_main_v0 (ix3 b t c) k = ix3 b t k := fun k => funext fun a => by match a with | ⟨0, _⟩ => rfl | ⟨1, _⟩ => rfl | ⟨2, _⟩ => rfl
  have er0 : ∀ k, ridx_main_v0 (ix3 b t c) k = ix2 c k := fun k => funext fun a => by match a with | ⟨0, _⟩ => rfl | ⟨1, _⟩ => rfl
  have el1 : ∀ k, lidx_main_v1 (ix3 b t c) k = ix3 b t k := fun k => funext fun a => by match a with | ⟨0, _⟩ => rfl | ⟨1, _⟩ => rfl | ⟨2, _⟩ => rfl
  have er1 : ∀ k, ridx_main_v1 (ix3 b t c) k = ix2 c k := fun k => funext fun a => by match a with | ⟨0, _⟩ => rfl | ⟨1, _⟩ => rfl
  simp only [el0, er0, el1, er1]
  rfl

/-- Gate `c` of token `(b, t)`: one over one plus the exponential of the negated logit is the logistic function. -/
theorem gate_apply (b : Fin 8) (t : Fin 4096) (c : Fin 2) :
    val_main_v8 (F := Ideal) x0 x1 x2 x3 (ix3 b t c)
      = gate (fun k => x0 (ix3 b t k)) (fun k => x1 (ix3 b t k)) (fun k => x2 (ix2 c k)) (fun k => x3 (ix2 c k)) := by
  rw [val_main_v8_apply, val_main_v7_apply, val_main_cst_0_apply, val_main_v6_apply, val_main_v5_apply, val_main_cst_apply,
    val_main_v4_apply, val_main_v3_apply, logit_apply]
  unfold gate Ideal.logistic
  show Ideal.div one (one + Ideal.exp (-_)) = _
  rw [one_eq]

/-- The reference's fused row of token `(b, t)`. -/
def fusedRow (b : Fin 8) (t : Fin 4096) : Fin 1024 → EReal :=
  fusedR (gate (fun k => x0 (ix3 b t k)) (fun k => x1 (ix3 b t k)) (fun k => x2 (ix2 (0 : Fin 2) k)) (fun k => x3 (ix2 (0 : Fin 2) k)))
    (gate (fun k => x0 (ix3 b t k)) (fun k => x1 (ix3 b t k)) (fun k => x2 (ix2 (1 : Fin 2) k)) (fun k => x3 (ix2 (1 : Fin 2) k)))
    (fun k => x0 (ix3 b t k)) (fun k => x1 (ix3 b t k))

theorem fused_apply (b : Fin 8) (t : Fin 4096) (k : Fin 1024) :
    val_main_v17 (F := Ideal) x0 x1 x2 x3 (ix3 b t k) = fusedRow x0 x1 x2 x3 b t k := by
  rw [val_main_v17_apply, val_main_v14_apply, val_main_v11_apply, val_main_v13_apply, val_main_v12_apply, val_main_v9_apply,
    val_main_v16_apply, val_main_v15_apply, val_main_v10_apply]
  rw [show idx_main_v9 (idx_main_v12 (ix3 b t k)) = ix3 b t (0 : Fin 2) from funext fun a => by match a with | ⟨0, _⟩ => rfl | ⟨1, _⟩ => rfl | ⟨2, _⟩ => rfl,
    show idx_main_v10 (idx_main_v15 (ix3 b t k)) = ix3 b t (1 : Fin 2) from funext fun a => by match a with | ⟨0, _⟩ => rfl | ⟨1, _⟩ => rfl | ⟨2, _⟩ => rfl, gate_apply, gate_apply]
  rfl

/-- The mean of token `(b, t)`'s fused row. -/
theorem mean_apply (b : Fin 8) (t : Fin 4096) (u : Fin 1) :
    val_main_v21 (F := Ideal) x0 x1 x2 x3 (ix3 b t u) = mean (fusedRow x0 x1 x2 x3 b t) := by
  rw [val_main_v21_apply, val_main_v19_apply, val_main_v20_apply, val_main_cst_2_apply, val_main_v18_apply, val_main_cst_1_apply]
  unfold mean
  show Ideal.div (Ideal.ofBits .f32 0x00000000#32
      + ∑ k : Fin 1024, val_main_v17 (F := Ideal) x0 x1 x2 x3 (idx_main_v18 (idx_main_v19 (ix3 b t u)) k)) len = _
  rw [Ideal.ofBits_zero_f32, zero_add]
  refine congrArg (fun s => Ideal.div s len) (Finset.sum_congr rfl fun k _ => ?_)
  rw [show idx_main_v18 (idx_main_v19 (ix3 b t u)) k = ix3 b t k from funext fun a => by match a with | ⟨0, _⟩ => rfl | ⟨1, _⟩ => rfl | ⟨2, _⟩ => rfl, fused_apply]

/-- The centered row, as the reference computes it for the variance … -/
theorem centered_apply (b : Fin 8) (t : Fin 4096) (q : Fin 1024) :
    val_main_v23 (F := Ideal) x0 x1 x2 x3 (ix3 b t q) = centered (fusedRow x0 x1 x2 x3 b t) q := by
  rw [val_main_v23_apply, val_main_v22_apply, fused_apply,
    show idx_main_v22 (ix3 b t q) = ix3 b t (0 : Fin 1) from funext fun a => by match a with | ⟨0, _⟩ => rfl | ⟨1, _⟩ => rfl | ⟨2, _⟩ => rfl, mean_apply]
  rfl

/-- … and again for the output. -/
theorem centered_apply' (b : Fin 8) (t : Fin 4096) (q : Fin 1024) :
    val_main_v30 (F := Ideal) x0 x1 x2 x3 (ix3 b t q) = centered (fusedRow x0 x1 x2 x3 b t) q := by
  rw [val_main_v30_apply, val_main_v29_apply, fused_apply,
    show idx_main_v29 (ix3 b t q) = ix3 b t (0 : Fin 1) from funext fun a => by match a with | ⟨0, _⟩ => rfl | ⟨1, _⟩ => rfl | ⟨2, _⟩ => rfl, mean_apply]
  rfl

/-- The reciprocal square root of the centered row's mean square plus the offset. -/
theorem invStd_apply (b : Fin 8) (t : Fin 4096) (u : Fin 1) :
    val_main_v33 (F := Ideal) x0 x1 x2 x3 (ix3 b t u) = invStd (fusedRow x0 x1 x2 x3 b t) := by
  rw [val_main_v33_apply, val_main_v32_apply, val_main_v31_apply, val_main_cst_5_apply, val_main_v28_apply, val_main_v27_apply,
    val_main_cst_4_apply, val_main_v26_apply, val_main_v25_apply, val_main_cst_3_apply]
  unfold invStd
  show Ideal.rsqrt (Ideal.div (Ideal.ofBits .f32 0x00000000#32
      + ∑ k : Fin 1024, val_main_v24 (F := Ideal) x0 x1 x2 x3 (idx_main_v25 (idx_main_v26 (ix3 b t u)) k)) len + eps) = _
  rw [Ideal.ofBits_zero_f32, zero_add]
  refine congrArg (fun s => Ideal.rsqrt (Ideal.div s len + eps)) (Finset.sum_congr rfl fun k _ => ?_)
  rw [show idx_main_v25 (idx_main_v26 (ix3 b t u)) k = ix3 b t k from funext fun a => by match a with | ⟨0, _⟩ => rfl | ⟨1, _⟩ => rfl | ⟨2, _⟩ => rfl, val_main_v24_apply, centered_apply]
  rfl

/-- THE RESULT AT AN ENTRY: at token `(b, t)` and column `d` the reference's result is the specification's row function,
    in the reference's arrangement, of the token's two rows, the weight matrices' rows and the scale and shift vectors. -/
theorem result_apply (b : Fin 8) (t : Fin 4096) (d : Fin 1024) :
    val_main_v41 (F := Ideal) x0 x1 x2 x3 x4 x5 (ix3 b t d)
      = rowRef (fun k => x0 (ix3 b t k)) (fun k => x1 (ix3 b t k)) (fun k => x2 (ix2 (0 : Fin 2) k)) (fun k => x3 (ix2 (0 : Fin 2) k))
          (fun k => x2 (ix2 (1 : Fin 2) k)) (fun k => x3 (ix2 (1 : Fin 2) k)) (fun k => x4 (ix1 k)) (fun k => x5 (ix1 k)) d := by
  rw [val_main_v41_apply, val_main_v38_apply, val_main_v35_apply, val_main_v34_apply, val_main_v37_apply, val_main_v36_apply,
    val_main_v40_apply, val_main_v39_apply, centered_apply',
    show idx_main_v34 (ix3 b t d) = ix3 b t (0 : Fin 1) from funext fun a => by match a with | ⟨0, _⟩ => rfl | ⟨1, _⟩ => rfl | ⟨2, _⟩ => rfl, invStd_apply,
    show idx_main_v36 (idx_main_v37 (ix3 b t d)) = ix1 d from funext fun a => by match a with | ⟨0, _⟩ => rfl,
    show idx_main_v39 (idx_main_v40 (ix3 b t d)) = ix1 d from funext fun a => by match a with | ⟨0, _⟩ => rfl]
  rfl

end Cert.ReferenceIdeal.Row

end
-- ==== Proof.RefRun.lean ====
/-
  The reference's whole result is the result function of the argument arrays: its last stage, read at token `(b, t)`
  and column `d`, is the specification's row function in the reference's arrangement.
-/
import proofs.«104263_j19765439496515_2_alg».proof.Proof.RefRow
import proofs.«104263_j19765439496515_2_alg».proof.Proof.Result

noncomputable section

namespace Cert.ReferenceIdeal.Whole

open Idealize.ShloMosaic Idealize.ShloMosaic.TcCoe Idealize.SL.Sem Idealize.ShloMosaic.ValueIdx
open Cert.ReferenceIdeal Cert.ReferenceIdeal.Read Cert.ReferenceIdeal.Row Cert.GatedNorm

/-- The term the reference's run ends at is the result function of the arguments. -/
theorem res_eq (m : (ℓ : Loc nD τ sig) → Buf (Elt Ideal) ℓ) (c : Dev nD) :
    Cert.ReferenceIdeal.Value.res_main_v41 m c
      = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [val_main_v41_eq]
  funext i
  obtain ⟨b, t, d, rfl⟩ : ∃ (b : Fin 8) (t : Fin 4096) (d : Fin 1024), i = ix3 b t d := ⟨i 0, i 1, i 2, eq_ix3 i⟩
  rw [result_at]
  exact result_apply _ _ _ _ _ _ b t d

end Cert.ReferenceIdeal.Whole

end
-- ==== Proof.lean ====
/-
  The certificate: a kernel that fuses two token arrays through two logistic gates and normalizes each fused row,
  against its array-level reference, as extended reals.

  For each of the 8 × 4096 tokens both programs form two logits (the token's two rows of 1024 entries contracted
  against a row of each of two weight matrices, added), pass them through the logistic function, fuse the two rows —
  the kernel as `(1 + g1) · a1 + (1 + g2) · a2`, the reference as `a1 + a2 + g1 · a1 + g2 · a2` —, subtract the fused
  row's mean, scale by the reciprocal square root of the mean square plus an offset, and apply an entrywise affine
  map. The only difference is the arrangement of the fused row, and it is none: a gate is nonnegative at every
  extended real, so the sum `1 + g` distributes over the product, and the rest is commutativity and associativity of
  the sum. No input need be finite for that, so the precondition is never opened.

  The kernel runs its body at 64 grid points on blocks of 512 rows; its frames are the generated ones, and its result
  array is read off the generated frame run: what a point writes back is a block of one whole-array function, the
  blocks tile the array, and the reshapes and transposes around the region move rows to tokens and back. The
  reference's run and its stages read at an index are the generated ones. No operation was rewritten for the reading
  at the extended reals, so the kernel read there is the kernel's own text and `preserves` has nothing to state.
-/
import proofs.«104263_j19765439496515_2_alg».proof.Defs
import proofs.«104263_j19765439496515_2_alg».proof.Proof.Gen.Kernel
import proofs.«104263_j19765439496515_2_alg».proof.Proof.Gen.Kernel.Skeleton
import proofs.«104263_j19765439496515_2_alg».proof.Proof.Gen.Kernel.Launch
import proofs.«104263_j19765439496515_2_alg».proof.Proof.Gen.Kernel.Points
import proofs.«104263_j19765439496515_2_alg».proof.Proof.Gen.Kernel.Frame
import proofs.«104263_j19765439496515_2_alg».proof.Proof.Gen.KernelIdeal
import proofs.«104263_j19765439496515_2_alg».proof.Proof.Gen.KernelIdeal.Skeleton
import proofs.«104263_j19765439496515_2_alg».proof.Proof.Gen.KernelIdeal.Launch
import proofs.«104263_j19765439496515_2_alg».proof.Proof.Gen.KernelIdeal.Points
import proofs.«104263_j19765439496515_2_alg».proof.Proof.Gen.KernelIdeal.Frame
import proofs.«104263_j19765439496515_2_alg».proof.Proof.Gen.ReferenceIdeal
import proofs.«104263_j19765439496515_2_alg».proof.Proof.Gen.Pre_finite_inputs
import proofs.«104263_j19765439496515_2_alg».proof.Proof.Gen.ReferenceIdeal.Run
import proofs.«104263_j19765439496515_2_alg».proof.Proof.Gen.ReferenceIdeal.Read
import proofs.«104263_j19765439496515_2_alg».proof.Proof.KernelRun
import proofs.«104263_j19765439496515_2_alg».proof.Proof.RefRun
import Idealize.ShloMosaic.Adequacy
import Idealize.ShloMosaic.Init

noncomputable section

namespace Cert.Proof

open Idealize.ShloMosaic Idealize.ShloMosaic.TcCoe Idealize.SL.Sem

/-- The word-level kernel terminates without a fault and leaves its arguments unchanged. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the result function of those arguments: the
    kernel's run names it, and the reference's run ends at the same function of its own arguments, which are the
    kernel's. -/
theorem algebraic : Cert.algebraic_KernelIdeal_ReferenceIdeal := by
  intro m ρ m' ρ' _ hagree
  refine ⟨fun c => Cert.GatedNorm.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Whole.run m ρ, ?_⟩
  refine (θ_run Cert.ReferenceIdeal.defs _ _).mono (fun _ h c => ⟨(h c).1.trans ?_, (h c).2⟩) (Cert.ReferenceIdeal.Value.run (F := Ideal) m' ρ')
  rw [Cert.ReferenceIdeal.Whole.res_eq, (hagree c).1, (hagree c).2.1, (hagree c).2.2.1, (hagree c).2.2.2.1, (hagree c).2.2.2.2.1,
    (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
